-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x128 : Shape := ⟨2, ![512, 128]⟩
abbrev S256x1 : Shape := ⟨2, ![256, 1]⟩
abbrev S1 : Shape := ⟨1, ![1]⟩
abbrev S8192x8192 : Shape := ⟨2, ![8192, 8192]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S8192x8192 : S_.BroadcastsInDim S8192x8192 (![] : Fin 0 → Fin S8192x8192.rank)
  reducesTo_S8192x8192_S_d0_1 : S8192x8192.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S8192x8192 .f32) (main_arg7 : FVec F S512 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S8192x8192 .f32 := Host.absf main_arg6
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8192x512 .f32) (main_arg1 : IVec S262144 32) (main_arg2 : IVec S262144 32) (main_arg3 : FVec F S512x128 .f32) (main_arg4 : FVec F S256x1 .f32) (main_arg5 : FVec F S1 .f32) (main_arg6 : FVec F S8192x8192 .f32) (main_arg7 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x1 .f32 := Host.absf main_arg4
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_v13 main_v16
-- ==== Kernel.lean ====
abbrev S8192x512 : Shape := ⟨2, ![8192, 512]⟩
abbrev S262144 : Shape := ⟨1, ![262144]⟩
abbrev S512x128 : Shape := ⟨2, ![512, 128]⟩
abbrev S256x1 : Shape := ⟨2, ![256, 1]⟩
abbrev S1 : Shape := ⟨1, ![1]⟩
abbrev S8192x8192 : Shape := ⟨2, ![8192, 8192]⟩
abbrev S512 : Shape := ⟨1, ![512]⟩
abbrev S_ : Shape := ⟨0, ![]⟩
abbrev S1x512 : Shape := ⟨2, ![1, 512]⟩
abbrev S8192x128 : Shape := ⟨2, ![8192, 128]⟩
abbrev S1024x512 : Shape := ⟨2, ![1024, 512]⟩
abbrev S1024x128 : Shape := ⟨2, ![1024, 128]⟩
abbrev S262144x1 : Shape := ⟨2, ![262144, 1]⟩
abbrev S262144x128 : Shape := ⟨2, ![262144, 128]⟩
abbrev S128x1 : Shape := ⟨2, ![128, 1]⟩
abbrev S1x1 : Shape := ⟨2, ![1, 1]⟩
abbrev S262144x2 : Shape := ⟨2, ![262144, 2]⟩
abbrev S1024x1024 : Shape := ⟨2, ![1024, 1024]⟩

abbrev nBuf : Space → Nat
  | .hbm => 133
  | .vmem => 13
  | .smem => 0
  | _ => 0

abbrev hbmTy0_0 (i : Nat) : BufTy := match i % 128 with
  | 0 => ⟨S8192x512, .f32⟩
  | 1 => ⟨S262144, .i32⟩
  | 2 => ⟨S262144, .i32⟩
  | 3 => ⟨S512x128, .f32⟩
  | 4 => ⟨S256x1, .f32⟩
  | 5 => ⟨S1, .f32⟩
  | 6 => ⟨S8192x8192, .f32⟩
  | 7 => ⟨S512, .f32⟩
  | 8 => ⟨S_, .f32⟩
  | 9 => ⟨S512, .f32⟩
  | 10 => ⟨S512, .i1⟩
  | 11 => ⟨S1x512, .i1⟩
  | 12 => ⟨S_, .f32⟩
  | 13 => ⟨S_, .f32⟩
  | 14 => ⟨S8192x512, .i1⟩
  | 15 => ⟨S8192x512, .f32⟩
  | 16 => ⟨S8192x512, .f32⟩
  | 17 => ⟨S8192x128, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x128, .f32⟩
  | 27 => ⟨S_, .f32⟩
  | 28 => ⟨S8192x128, .f32⟩
  | 29 => ⟨S262144x1, .i32⟩
  | 30 => ⟨S8192x128, .f32⟩
  | 31 => ⟨S_, .f32⟩
  | 32 => ⟨S8192x128, .f32⟩
  | 33 => ⟨S8192x128, .f32⟩
  | 34 => ⟨S128x1, .f32⟩
  | 35 => ⟨S128x1, .f32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S262144x1, .i32⟩
  | 44 => ⟨S262144x128, .f32⟩
  | 45 => ⟨S262144x1, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S262144x128, .f32⟩
  | 55 => ⟨S262144x1, .f32⟩
  | 56 => ⟨S262144x1, .f32⟩
  | 57 => ⟨S1x1, .f32⟩
  | 58 => ⟨S262144x1, .f32⟩
  | 59 => ⟨S262144x1, .f32⟩
  | 60 => ⟨S262144, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S262144, .f32⟩
  | 69 => ⟨S262144, .f32⟩
  | 70 => ⟨S262144, .f32⟩
  | 71 => ⟨S262144, .f32⟩
  | 72 => ⟨S_, .f32⟩
  | 73 => ⟨S262144, .f32⟩
  | 74 => ⟨S262144, .f32⟩
  | 75 => ⟨S_, .f32⟩
  | 76 => ⟨S8192x8192, .f32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S262144x1, .i32⟩
  | 92 => ⟨S262144x1, .i32⟩
  | 93 => ⟨S262144x2, .i32⟩
  | 94 => ⟨S8192x8192, .f32⟩
  | 95 => ⟨S_, .f32⟩
  | 96 => ⟨S8192x8192, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144x1, .i32⟩
  | 113 => ⟨S262144x2, .i32⟩
  | 114 => ⟨S_, .f32⟩
  | 115 => ⟨S262144, .f32⟩
  | 116 => ⟨S8192x8192, .f32⟩
  | 117 => ⟨S8192x8192, .f32⟩
  | 118 => ⟨S_, .f32⟩
  | 119 => ⟨S8192x8192, .f32⟩
  | 120 => ⟨S8192x8192, .i1⟩
  | 121 => ⟨S8192x8192, .i32⟩
  | 122 => ⟨S_, .i32⟩
  | 123 => ⟨S_, .i32⟩
  | 124 => ⟨S_, .f32⟩
  | 125 => ⟨S_, .f32⟩
  | 126 => ⟨S8192x8192, .f32⟩
  | 127 => ⟨S8192x8192, .i1⟩
  | _ => ⟨S8192x512, .f32⟩

abbrev hbmTy0_1 (i : Nat) : BufTy := match i % 128 with
  | 0 => ⟨S8192x8192, .i32⟩
  | 1 => ⟨S_, .i32⟩
  | 2 => ⟨S_, .i32⟩
  | 3 => ⟨S_, .f32⟩
  | 4 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S1024x128, .f32⟩
  | .local _ .vmem, ⟨4, _⟩ => ⟨S1024x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_16 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_19 : Ref sig .tc := ⟨.hbm, 104, rfl⟩
abbrev main_v70 : Ref sig .tc := ⟨.hbm, 105, rfl⟩
abbrev main_v71 : Ref sig .tc := ⟨.hbm, 106, rfl⟩
abbrev main_c_20 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_21 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_22 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_23 : Ref sig .tc := ⟨.hbm, 122, rfl⟩
abbrev main_v84 : Ref sig .tc := ⟨.hbm, 123, rfl⟩
abbrev main_v85 : Ref sig .tc := ⟨.hbm, 124, rfl⟩
abbrev main_cst_24 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_25 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  bcast_S_S262144 : S_.BroadcastsInDim S262144 (![] : Fin 0 → Fin S262144.rank)
  bcast_S262144_S262144x1_0 : S262144.BroadcastsInDim S262144x1 (![0] : Fin 1 → Fin S262144x1.rank)
  bcast_S_S8192x128 : S_.BroadcastsInDim S8192x128 (![] : Fin 0 → Fin S8192x128.rank)
  slices_S256x1_S128x1_0_0 : S256x1.Slices ![0, 0] S128x1
  slices_S256x1_S128x1_128_0 : S256x1.Slices ![128, 0] S128x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  reducesTo_S262144_S_d0 : S262144.ReducesTo [0] S_
  h_S_ : 0 < S_.numel
  bcast_S_S8192x8192 : S_.BroadcastsInDim S8192x8192 (![] : Fin 0 → Fin S8192x8192.rank)
  concatenates_S262144x1_S262144x1_S262144x2_d1 : Shape.Concatenates [S262144x1, S262144x1] S262144x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  reducesTo_S8192x8192_S_d0_1 : S8192x8192.ReducesTo [0, 1] S_
  dot_S1024x512_S512x128_S1024x128_1_0_0_1_n_n_wf : DotDims.WF S1024x512 S512x128 S1024x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S262144x128_S128x1_S262144x1_1_0_0_1_n_n_wf : DotDims.WF S262144x128 S128x1 S262144x1 [1] [0] [0] [1] [] []
  scatter_S8192x8192_S262144x2_S262144_n_01_01_1_wf : ScatterDims.WF S8192x8192 S262144x2 S262144 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v80) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S262144 : Shape := ⟨1, ![262144]⟩
abbrev S512x128 : Shape := ⟨2, ![512, 128]⟩
abbrev S256x1 : Shape := ⟨2, ![256, 1]⟩
abbrev S1 : Shape := ⟨1, ![1]⟩
abbrev S8192x8192 : Shape := ⟨2, ![8192, 8192]⟩
abbrev S512 : Shape := ⟨1, ![512]⟩
abbrev S_ : Shape := ⟨0, ![]⟩
abbrev S1x512 : Shape := ⟨2, ![1, 512]⟩
abbrev S8192x128 : Shape := ⟨2, ![8192, 128]⟩
abbrev S262144x1 : Shape := ⟨2, ![262144, 1]⟩
abbrev S262144x128 : Shape := ⟨2, ![262144, 128]⟩
abbrev S128x1 : Shape := ⟨2, ![128, 1]⟩
abbrev S1x1 : Shape := ⟨2, ![1, 1]⟩
abbrev S262144x2 : Shape := ⟨2, ![262144, 2]⟩

abbrev nBuf : Space → Nat
  | .hbm => 165
  | .vmem => 0
  | .smem => 0
  | _ => 0

abbrev hbmTy0_0 (i : Nat) : BufTy := match i % 128 with
  | 0 => ⟨S8192x512, .f32⟩
  | 1 => ⟨S262144, .i32⟩
  | 2 => ⟨S262144, .i32⟩
  | 3 => ⟨S512x128, .f32⟩
  | 4 => ⟨S256x1, .f32⟩
  | 5 => ⟨S1, .f32⟩
  | 6 => ⟨S8192x8192, .f32⟩
  | 7 => ⟨S512, .f32⟩
  | 8 => ⟨S_, .f32⟩
  | 9 => ⟨S512, .f32⟩
  | 10 => ⟨S512, .i1⟩
  | 11 => ⟨S1x512, .i1⟩
  | 12 => ⟨S_, .f32⟩
  | 13 => ⟨S_, .f32⟩
  | 14 => ⟨S8192x512, .i1⟩
  | 15 => ⟨S8192x512, .f32⟩
  | 16 => ⟨S8192x512, .f32⟩
  | 17 => ⟨S8192x128, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x128, .f32⟩
  | 27 => ⟨S_, .f32⟩
  | 28 => ⟨S8192x128, .f32⟩
  | 29 => ⟨S262144x1, .i32⟩
  | 30 => ⟨S8192x128, .f32⟩
  | 31 => ⟨S_, .f32⟩
  | 32 => ⟨S8192x128, .f32⟩
  | 33 => ⟨S8192x128, .f32⟩
  | 34 => ⟨S128x1, .f32⟩
  | 35 => ⟨S128x1, .f32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S262144x1, .i32⟩
  | 44 => ⟨S262144x128, .f32⟩
  | 45 => ⟨S262144x1, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S262144x128, .f32⟩
  | 55 => ⟨S262144x1, .f32⟩
  | 56 => ⟨S262144x1, .f32⟩
  | 57 => ⟨S1x1, .f32⟩
  | 58 => ⟨S262144x1, .f32⟩
  | 59 => ⟨S262144x1, .f32⟩
  | 60 => ⟨S262144, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S262144, .f32⟩
  | 69 => ⟨S262144, .f32⟩
  | 70 => ⟨S262144, .f32⟩
  | 71 => ⟨S262144, .f32⟩
  | 72 => ⟨S_, .f32⟩
  | 73 => ⟨S262144, .f32⟩
  | 74 => ⟨S262144, .f32⟩
  | 75 => ⟨S_, .f32⟩
  | 76 => ⟨S8192x8192, .f32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S262144x1, .i32⟩
  | 92 => ⟨S262144x1, .i32⟩
  | 93 => ⟨S262144x2, .i32⟩
  | 94 => ⟨S8192x8192, .f32⟩
  | 95 => ⟨S_, .f32⟩
  | 96 => ⟨S8192x8192, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144x1, .i32⟩
  | 113 => ⟨S262144x2, .i32⟩
  | 114 => ⟨S_, .f32⟩
  | 115 => ⟨S262144, .f32⟩
  | 116 => ⟨S8192x8192, .f32⟩
  | 117 => ⟨S_, .f32⟩
  | 118 => ⟨S8192x8192, .f32⟩
  | 119 => ⟨S8192x8192, .f32⟩
  | 120 => ⟨S8192x8192, .f32⟩
  | 121 => ⟨S8192x8192, .f32⟩
  | 122 => ⟨S_, .f32⟩
  | 123 => ⟨S8192x8192, .f32⟩
  | 124 => ⟨S8192x8192, .f32⟩
  | 125 => ⟨S8192x8192, .f32⟩
  | 126 => ⟨S8192x8192, .f32⟩
  | 127 => ⟨S8192x8192, .f32⟩
  | _ => ⟨S8192x512, .f32⟩

abbrev hbmTy0_1 (i : Nat) : BufTy := match i % 128 with
  | 0 => ⟨S8192x8192, .f32⟩
  | 1 => ⟨S8192x8192, .f32⟩
  | 2 => ⟨S8192x8192, .f32⟩
  | 3 => ⟨S8192x8192, .f32⟩
  | 4 => ⟨S_, .f32⟩
  | 5 => ⟨S8192x8192, .f32⟩
  | 6 => ⟨S8192x8192, .f32⟩
  | 7 => ⟨S8192x8192, .f32⟩
  | 8 => ⟨S8192x8192, .f32⟩
  | 9 => ⟨S_, .f32⟩
  | 10 => ⟨S8192x8192, .f32⟩
  | 11 => ⟨S8192x8192, .f32⟩
  | 12 => ⟨S_, .f32⟩
  | 13 => ⟨S8192x8192, .f32⟩
  | 14 => ⟨S8192x8192, .f32⟩
  | 15 => ⟨S8192x8192, .f32⟩
  | 16 => ⟨S8192x8192, .f32⟩
  | 17 => ⟨S8192x8192, .f32⟩
  | 18 => ⟨S_, .f32⟩
  | 19 => ⟨S8192x8192, .f32⟩
  | 20 => ⟨S8192x8192, .f32⟩
  | 21 => ⟨S8192x8192, .f32⟩
  | 22 => ⟨S_, .f32⟩
  | 23 => ⟨S8192x8192, .f32⟩
  | 24 => ⟨S8192x8192, .i1⟩
  | 25 => ⟨S8192x8192, .i32⟩
  | 26 => ⟨S_, .i32⟩
  | 27 => ⟨S_, .i32⟩
  | 28 => ⟨S_, .f32⟩
  | 29 => ⟨S_, .f32⟩
  | 30 => ⟨S8192x8192, .f32⟩
  | 31 => ⟨S8192x8192, .i1⟩
  | 32 => ⟨S8192x8192, .i32⟩
  | 33 => ⟨S_, .i32⟩
  | 34 => ⟨S_, .i32⟩
  | 35 => ⟨S_, .f32⟩
  | 36 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_16 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_19 : Ref sig .tc := ⟨.hbm, 104, rfl⟩
abbrev main_v70 : Ref sig .tc := ⟨.hbm, 105, rfl⟩
abbrev main_v71 : Ref sig .tc := ⟨.hbm, 106, rfl⟩
abbrev main_c_20 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_21 : Ref sig .tc := ⟨.hbm, 114, rfl⟩
abbrev main_v78 : Ref sig .tc := ⟨.hbm, 115, rfl⟩
abbrev main_v79 : Ref sig .tc := ⟨.hbm, 116, rfl⟩
abbrev main_cst_22 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_23 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_24 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_25 : Ref sig .tc := ⟨.hbm, 137, rfl⟩
abbrev main_v97 : Ref sig .tc := ⟨.hbm, 138, rfl⟩
abbrev main_v98 : Ref sig .tc := ⟨.hbm, 139, rfl⟩
abbrev main_cst_26 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_27 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_28 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_29 : Ref sig .tc := ⟨.hbm, 154, rfl⟩
abbrev main_v110 : Ref sig .tc := ⟨.hbm, 155, rfl⟩
abbrev main_v111 : Ref sig .tc := ⟨.hbm, 156, rfl⟩
abbrev main_cst_30 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_31 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S8192x128 : S_.BroadcastsInDim S8192x128 (![] : Fin 0 → Fin S8192x128.rank)
  slices_S256x1_S128x1_0_0 : S256x1.Slices ![0, 0] S128x1
  slices_S256x1_S128x1_128_0 : S256x1.Slices ![128, 0] S128x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  reducesTo_S262144_S_d0 : S262144.ReducesTo [0] S_
  h_S_ : 0 < S_.numel
  bcast_S_S8192x8192 : S_.BroadcastsInDim S8192x8192 (![] : Fin 0 → Fin S8192x8192.rank)
  concatenates_S262144x1_S262144x1_S262144x2_d1 : Shape.Concatenates [S262144x1, S262144x1] S262144x2 1
  natLt_1_32 : 1 < 32
  reducesTo_S8192x8192_S_d0_1 : S8192x8192.ReducesTo [0, 1] S_
  dot_S8192x512_S512x128_S8192x128_1_0_0_1_n_n_wf : DotDims.WF S8192x512 S512x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S262144x128_S128x1_S262144x1_1_0_0_1_n_n_wf : DotDims.WF S262144x128 S128x1 S262144x1 [1] [0] [0] [1] [] []
  scatter_S8192x8192_S262144x2_S262144_n_01_01_1_wf : ScatterDims.WF S8192x8192 S262144x2 S262144 [] [0, 1] [0, 1] 1

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.KernelRun.lean ====
/-
  The whole run of the idealized kernel program, with every buffer named.

  The program is a chain of eight segments: host operations, the first pallas_call (the encoder matmul),
  three stretches of host operations (gathers, the segment sum, the edge scores, their normalisation and the
  two dense scatters), the second pallas_call (the dense pointwise sampling chain), and the host tail (the two
  counts and their quotient). The frame module folds the buffer contents through these segments,
  `W0 … W8`, and its run ends with every unscoped buffer `b` of core `c` holding `W8 m ρ c b`; its stated
  post keeps only the argument arrays. Here the same run is stated with that last fact kept whole, so that the
  three result buffers can be read off `W8`.
-/
import proofs.«160412_j54743653154966_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from `m` (counters zero) terminates without a fault, and in the
    final memory every unscoped buffer `b` of every core `c` holds the last fold value `W8 m ρ c b`: the launch over
    the eight segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Val

end
-- ==== Proof.HostPre.lean ====
/-
  The host stretches of the idealized kernel program, read over an arbitrary valuation of the buffers.

  Between its two pallas_calls the kernel program runs the same host operations as the reference: the rows of the
  encoder product gathered along the edges' source nodes and summed into the target nodes, a rectifier, the two
  gathers and the two products with the halves of the edge weights, the bias, the minimum and the maximum over all
  edges, the affine normalisation into [0, 0.3], and the two scatters into dense 8192 x 8192 arrays. The reference
  computes the encoder product by one host product; the kernel program finds it in a buffer a pallas_call wrote.
  So each stretch is read here from a valuation `Vv` of the buffers in which the product's buffer holds anything;
  where it holds the reference's product (`hv4`), the stretch's result is the reference's own stage, term for term.
  The same for the few lines before the first call (the feature mask) and for the tail after the second (the two
  counts of nonzero entries and their quotient).
-/
import proofs.«160412_j54743653154966_1_alg».proof.Proof.Gen.KernelIdeal.Launch
import proofs.«160412_j54743653154966_1_alg».proof.Proof.ReadP
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.ReadP (val_main_v3 val_main_v4 val_main_v63 val_main_v79 val_main_v106 val_main_v117)

variable (Vv : Valuation τ sig (Elt Ideal))

/-! ## Before the first call: the masked features -/

/-- The feature array after the first two stretches: the columns whose uniform draw is below 0.2 zeroed. -/
theorem pre_v3 :
    StableHlo.after hostOps0_1 (StableHlo.after hostOps0 Vv) (Proc.devRef .tc main_v3)
      = val_main_v3 (F := Ideal) (Vv (Proc.devRef .tc main_arg0)) (Vv (Proc.devRef .tc main_arg7)) := by
  after_results_simp
  rfl

/-- The first two stretches write no buffer of the first call's operands. -/
theorem pre_arg0 : StableHlo.after hostOps0_1 (StableHlo.after hostOps0 Vv) (Proc.devRef .tc main_arg0) = Vv (Proc.devRef .tc main_arg0) := by
  after_results_simp
theorem pre_arg3 : StableHlo.after hostOps0_1 (StableHlo.after hostOps0 Vv) (Proc.devRef .tc main_arg3) = Vv (Proc.devRef .tc main_arg3) := by
  after_results_simp
theorem pre_arg1 : StableHlo.after hostOps0_1 (StableHlo.after hostOps0 Vv) (Proc.devRef .tc main_arg1) = Vv (Proc.devRef .tc main_arg1) := by
  after_results_simp
theorem pre_arg2 : StableHlo.after hostOps0_1 (StableHlo.after hostOps0 Vv) (Proc.devRef .tc main_arg2) = Vv (Proc.devRef .tc main_arg2) := by
  after_results_simp
theorem pre_arg4 : StableHlo.after hostOps0_1 (StableHlo.after hostOps0 Vv) (Proc.devRef .tc main_arg4) = Vv (Proc.devRef .tc main_arg4) := by
  after_results_simp
theorem pre_arg5 : StableHlo.after hostOps0_1 (StableHlo.after hostOps0 Vv) (Proc.devRef .tc main_arg5) = Vv (Proc.devRef .tc main_arg5) := by
  after_results_simp
theorem pre_arg6 : StableHlo.after hostOps0_1 (StableHlo.after hostOps0 Vv) (Proc.devRef .tc main_arg6) = Vv (Proc.devRef .tc main_arg6) := by
  after_results_simp

end Cert.KernelIdeal.Val

end
-- ==== Proof.HostMid.lean ====
/-
  The host operations between the two pallas_calls, read over an arbitrary valuation of the buffers.

  From the encoder product `xw` (found in the buffer the first call wrote) and the edge lists `row`, `col`:
  `agg = segment_sum(xw[col], row)`, `emb = max(agg, 0)`, the edge scores
  `emb[row] · W₁ + emb[col] · W₂ + b`, their minimum `lo` and maximum `hi` over all edges, the probabilities
  `0 + (0.3 / (hi − lo)) · (score − lo)`, and the two dense arrays: the probabilities scattered at (row, col) into
  zeros, and ones scattered at (row, col) into zeros. These are the reference's own operations in the reference's
  order; where the product's buffer holds the reference's product of the same arguments, the two dense arrays are
  the reference's stages of those arguments.
-/
import proofs.«160412_j54743653154966_1_alg».proof.Proof.Gen.KernelIdeal.Launch
import proofs.«160412_j54743653154966_1_alg».proof.Proof.ReadP
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.ReadP (val_main_v3 val_main_v4 val_main_v63 val_main_v79 val_main_v106 val_main_v117)

variable (Vv : Valuation τ sig (Elt Ideal))

/-- The scattered probabilities after the three middle stretches, where the buffer of the encoder product holds the
    product of the argument arrays: the reference's stage, operation for operation. -/
theorem mid_v63
    (hv4 : Vv (Proc.devRef .tc main_v4)
      = val_main_v4 (F := Ideal) (Vv (Proc.devRef .tc main_arg0)) (Vv (Proc.devRef .tc main_arg3))) :
    StableHlo.after hostOps1_2 (StableHlo.after hostOps1_1 (StableHlo.after hostOps1 Vv)) (Proc.devRef .tc main_v63)
      = val_main_v63 (F := Ideal) (Vv (Proc.devRef .tc main_arg0)) (Vv (Proc.devRef .tc main_arg1))
          (Vv (Proc.devRef .tc main_arg2)) (Vv (Proc.devRef .tc main_arg3)) (Vv (Proc.devRef .tc main_arg4))
          (Vv (Proc.devRef .tc main_arg5)) := by
  after_results_simp
  rw [hv4]
  rfl

/-- The scattered ones (the dense 0/1 adjacency) after the three middle stretches: a function of the edge lists
    alone, the reference's stage. -/
theorem mid_v79 :
    StableHlo.after hostOps1_2 (StableHlo.after hostOps1_1 (StableHlo.after hostOps1 Vv)) (Proc.devRef .tc main_v79)
      = val_main_v79 (F := Ideal) (Vv (Proc.devRef .tc main_arg1)) (Vv (Proc.devRef .tc main_arg2)) := by
  after_results_simp
  rfl

/-- The middle stretches write neither the noise array nor the masked features. -/
theorem mid_arg6 :
    StableHlo.after hostOps1_2 (StableHlo.after hostOps1_1 (StableHlo.after hostOps1 Vv)) (Proc.devRef .tc main_arg6)
      = Vv (Proc.devRef .tc main_arg6) := by
  after_results_simp
theorem mid_v3 :
    StableHlo.after hostOps1_2 (StableHlo.after hostOps1_1 (StableHlo.after hostOps1 Vv)) (Proc.devRef .tc main_v3)
      = Vv (Proc.devRef .tc main_v3) := by
  after_results_simp

end Cert.KernelIdeal.Val

end
-- ==== Proof.HostTail.lean ====
/-
  The host tail after the second pallas_call, read over an arbitrary valuation of the buffers.

  The tail counts the nonzero entries of the sampled adjacency and of the dense 0/1 adjacency (each an integer sum
  over both axes of the indicator of `≠ 0`), converts the two counts to floats and divides. These are the
  reference's last operations; where the two arrays' buffers hold the reference's stages, so does the quotient's.
-/
import proofs.«160412_j54743653154966_1_alg».proof.Proof.Gen.KernelIdeal.Launch
import proofs.«160412_j54743653154966_1_alg».proof.Proof.ReadP
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.ReadP (val_main_v3 val_main_v4 val_main_v63 val_main_v79 val_main_v106 val_main_v117)

variable (Vv : Valuation τ sig (Elt Ideal))

/-- The ratio of the two counts after the tail, where the sampled adjacency's buffer and the dense adjacency's buffer
    hold the reference's stages of the arguments `x0 … x6`: the reference's last stage. -/
theorem tail_v91
    (x0 : (⟨Cert.ReferenceIdeal.S8192x512, .f32⟩ : BufTy).Contents (Elt Ideal))
    (x1 x2 : (⟨Cert.ReferenceIdeal.S262144, .i32⟩ : BufTy).Contents (Elt Ideal))
    (x3 : (⟨Cert.ReferenceIdeal.S512x128, .f32⟩ : BufTy).Contents (Elt Ideal))
    (x4 : (⟨Cert.ReferenceIdeal.S256x1, .f32⟩ : BufTy).Contents (Elt Ideal))
    (x5 : (⟨Cert.ReferenceIdeal.S1, .f32⟩ : BufTy).Contents (Elt Ideal))
    (x6 : (⟨Cert.ReferenceIdeal.S8192x8192, .f32⟩ : BufTy).Contents (Elt Ideal))
    (h80 : Vv (Proc.devRef .tc main_v80) = val_main_v106 (F := Ideal) x0 x1 x2 x3 x4 x5 x6)
    (h79 : Vv (Proc.devRef .tc main_v79) = val_main_v79 (F := Ideal) x1 x2) :
    StableHlo.after hostOps2 Vv (Proc.devRef .tc main_v91) = val_main_v117 (F := Ideal) x0 x1 x2 x3 x4 x5 x6 := by
  after_results_simp
  rw [h80, h79]
  rfl

/-- The tail writes neither the sampled adjacency nor the masked features. -/
theorem tail_v80 : StableHlo.after hostOps2 Vv (Proc.devRef .tc main_v80) = Vv (Proc.devRef .tc main_v80) := by
  after_results_simp
theorem tail_v3 : StableHlo.after hostOps2 Vv (Proc.devRef .tc main_v3) = Vv (Proc.devRef .tc main_v3) := by
  after_results_simp

end Cert.KernelIdeal.Val

end
-- ==== Proof.MatmulBlock.lean ====
/- One tile of the matrix product, entry by entry. The body is handed a tile of 1024 rows of the left
   factor and the whole right factor and stores their product accumulated into zero. At the ideal values that
   product's entry at row p and column q is the sum, over the 512 contraction positions k, of the tile's entry
   (p, k) times the right factor's entry (k, q): the accumulator contributes 0, and the dot's one contracting
   axis is re-indexed by its single coordinate. -/
import proofs.«160412_j54743653154966_1_alg».proof.Proof.Gen.KernelIdeal.Skeleton
import Idealize.ShloMosaic.Lib.ValueIdx
import Idealize.ShloMosaic.PureOps.Ideal.Laws

noncomputable section

namespace Cert.KernelIdeal.Val

open Idealize.ShloMosaic Idealize.SL.Sem
open Cert.KernelIdeal Cert.KernelIdeal.Gen

/-- The left factor's index for the output entry `j` at contraction position `k`: the row of `j`, column `k`. -/
abbrev tileL (j : S1024x128.Idx) (k : Fin 512) : S1024x512.Idx := fun a => match a with
  | ⟨0, _⟩ => ⟨(j 0).val, (j 0).isLt⟩
  | ⟨1, _⟩ => ⟨k.val, k.isLt⟩

/-- The right factor's: row `k`, the column of `j`. -/
abbrev tileR (j : S1024x128.Idx) (k : Fin 512) : S512x128.Idx := fun a => match a with
  | ⟨0, _⟩ => ⟨k.val, k.isLt⟩
  | ⟨1, _⟩ => ⟨(j 1).val, (j 1).isLt⟩

/-- Off its contracting axis the left index is the output's row. -/
theorem tile_lhs_row (j : S1024x128.Idx) (q : dot_S1024x512_S512x128_S1024x128_1_0_0_1_n_n.contr.Idx) :
    (dot_S1024x512_S512x128_S1024x128_1_0_0_1_n_n.lhsIdx j q 0).val = (j 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl

/-- On it, the contraction position. -/
theorem tile_lhs_col (j : S1024x128.Idx) (q : dot_S1024x512_S512x128_S1024x128_1_0_0_1_n_n.contr.Idx) :
    (dot_S1024x512_S512x128_S1024x128_1_0_0_1_n_n.lhsIdx j q 1).val = (q ⟨0, by decide⟩).val :=
  dot_S1024x512_S512x128_S1024x128_1_0_0_1_n_n.lhsIdx_val_of_single rfl j q

/-- The right index on its contracting axis is the contraction position, -/
theorem tile_rhs_row (j : S1024x128.Idx) (q : dot_S1024x512_S512x128_S1024x128_1_0_0_1_n_n.contr.Idx) :
    (dot_S1024x512_S512x128_S1024x128_1_0_0_1_n_n.rhsIdx j q 0).val = (q ⟨0, by decide⟩).val :=
  dot_S1024x512_S512x128_S1024x128_1_0_0_1_n_n.rhsIdx_val_of_single rfl j q

/-- and off it the output's column. -/
theorem tile_rhs_col (j : S1024x128.Idx) (q : dot_S1024x512_S512x128_S1024x128_1_0_0_1_n_n.contr.Idx) :
    (dot_S1024x512_S512x128_S1024x128_1_0_0_1_n_n.rhsIdx j q 1).val = (j 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- THE TILE'S PRODUCT AT AN ENTRY: the sum over the contraction of left (row, k) times right (k, column). -/
theorem k0_pay1_apply (x : Vec Ideal S1024x512 .f32) (w : Vec Ideal S512x128 .f32) (j : S1024x128.Idx) :
    k0_pay1 (F := Ideal) x w j = ∑ k : Fin 512, x (tileL j k) * w (tileR j k) := by
  unfold k0_pay1
  show FloatOps.matmul (F := Ideal) (φ₁ := .f32) (φ₂ := .f32) dot_S1024x512_S512x128_S1024x128_1_0_0_1_n_n none x w (constant S1024x128 .f32 0x00000000#32) j = _
  rw [Ideal.matmul_constant_zero_apply, ← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx j ((ValueIdx.contrEquiv1 dot_S1024x512_S512x128_S1024x128_1_0_0_1_n_n 512 rfl rfl).symm k) = tileL j k := funext fun a => Fin.ext (by
    match a with
    | ⟨0, _⟩ => exact tile_lhs_row _ _
    | ⟨1, _⟩ => exact (tile_lhs_col _ _).trans hk)
  have er : dot_S1024x512_S512x128_S1024x128_1_0_0_1_n_n.rhsIdx j ((ValueIdx.contrEquiv1 dot_S1024x512_S512x128_S1024x128_1_0_0_1_n_n 512 rfl rfl).symm k) = tileR j k := funext fun a => Fin.ext (by
    match a with
    | ⟨0, _⟩ => exact (tile_rhs_row _ _).trans hk
    | ⟨1, _⟩ => exact tile_rhs_col _ _)
  rw [el, er]

end Cert.KernelIdeal.Val

end
-- ==== Proof.RegionMatmul.lean ====
/- The tiled matrix product, from tiles to the array. The grid has 8 points; point t is handed rows
   1024·t … 1024·t + 1023 of the [8192,512] left factor and all of the [512,128] right factor, and writes back rows
   1024·t … 1024·t + 1023 of the [8192,128] result. What it writes is its tile's product, so row r, column q of the
   result ends as the sum over the 512 contraction positions k of left (r, k) times right (k, q): every point's
   write-back is its block of that one function, and the 8 blocks cover the result (row r lies in block r / 1024). -/
import proofs.«160412_j54743653154966_1_alg».proof.Proof.Gen.KernelIdeal.Frame
import proofs.«160412_j54743653154966_1_alg».proof.Proof.Gen.KernelIdeal.Points
import proofs.«160412_j54743653154966_1_alg».proof.Proof.MatmulBlock
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The product, entry by entry -/

/-- The left factor's index for the result's entry `i` at contraction position `k`: the row of `i`, column `k`. -/
abbrev rowL (i : S8192x128.Idx) (k : Fin 512) : S8192x512.Idx := fun a => match a with
  | ⟨0, _⟩ => ⟨(i 0).val, (i 0).isLt⟩
  | ⟨1, _⟩ => ⟨k.val, k.isLt⟩

/-- The right factor's: row `k`, the column of `i`. -/
abbrev rowR (i : S8192x128.Idx) (k : Fin 512) : S512x128.Idx := fun a => match a with
  | ⟨0, _⟩ => ⟨k.val, k.isLt⟩
  | ⟨1, _⟩ => ⟨(i 1).val, (i 1).isLt⟩

/-- The product of an [8192,512] and a [512,128] array at the ideal values: entry (r, q) is the sum over k of
    left (r, k) times right (k, q). -/
def product (X : (⟨S8192x512, .f32⟩ : BufTy).Contents (Elt Ideal)) (W : (⟨S512x128, .f32⟩ : BufTy).Contents (Elt Ideal)) :
    (⟨S8192x128, .f32⟩ : BufTy).Contents (Elt Ideal) :=
  fun i => ∑ k : Fin 512, X (rowL i k) * W (rowR i k)

/-- A TILE'S PRODUCT IS ITS ROWS OF THE PRODUCT. If the tile `x` is rows `1024·T …` of `X` (`hx`) and `w` is `W` (`hw`),
    the tile's product at (p, q) is the product's entry at (1024·T + p, q). -/
theorem tile_eq_product (X : (⟨S8192x512, .f32⟩ : BufTy).Contents (Elt Ideal)) (W : (⟨S512x128, .f32⟩ : BufTy).Contents (Elt Ideal))
    (x : Vec Ideal S1024x512 .f32) (w : Vec Ideal S512x128 .f32) (T : Nat) (j : S1024x128.Idx) (i : S8192x128.Idx)
    (hi0 : (i 0).val = T * 1024 + (j 0).val) (hi1 : (i 1).val = (j 1).val)
    (hx : ∀ (y : S1024x512.Idx) (z : S8192x512.Idx), (z 0).val = T * 1024 + (y 0).val → (z 1).val = (y 1).val → x y = X z)
    (hw : ∀ (y z : S512x128.Idx), (z 0).val = (y 0).val → (z 1).val = (y 1).val → w y = W z) :
    k0_pay1 (F := Ideal) x w j = product X W i := by
  rw [k0_pay1_apply]
  unfold product
  refine Finset.sum_congr rfl fun k _ => ?_
  rw [hx (tileL j k) (rowL i k) hi0 rfl, hw (tileR j k) (rowR i k) rfl hi1]

/-! ## Every point writes back its block of the product -/

section
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 8 points: the left factor's and the result's block index is (t, 0), the right
    factor's (0, 0). -/
theorem block_indices : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the two arrays as the region finds them. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S1024x512) zero_offsets, View.ld_unit_zero (S := S512x128) zero_offsets]
  obtain ⟨e0, e1, e2, e3, e4, e5⟩ := block_indices t
  refine funext fun (j : S1024x128.Idx) => ?_
  show k0_pay1 (iblk0 V c 0 t) (iblk0 V c 1 t) j = product (V c main_arg0) (V c main_arg3) (((cfg0.win 2).blk t).view.emb j)
  refine tile_eq_product _ _ _ _ t.val j _ ?_ ?_ ?_ ?_
  · show win0_2.index t (0 : Fin 2) * 1024 + 1 * (j 0).val = t.val * 1024 + (j 0).val
    rw [e4]; omega
  · show win0_2.index t (1 : Fin 2) * 128 + 1 * (j 1).val = (j 1).val
    rw [e5]; omega
  · intro y z h0 h1
    show V c main_arg0 (((cfg0.win 0).blk t).view.emb y) = V c main_arg0 z
    refine congrArg (V c main_arg0) ?_
    funext a; apply Fin.ext
    match a with
    | ⟨0, _⟩ => show win0_0.index t (0 : Fin 2) * 1024 + 1 * (y 0).val = (z 0).val; rw [e0, h0]; omega
    | ⟨1, _⟩ => show win0_0.index t (1 : Fin 2) * 512 + 1 * (y 1).val = (z 1).val; rw [e1, h1]; omega
  · intro y z h0 h1
    show V c main_arg3 (((cfg0.win 1).blk t).view.emb y) = V c main_arg3 z
    refine congrArg (V c main_arg3) ?_
    funext a; apply Fin.ext
    match a with
    | ⟨0, _⟩ => show win0_1.index t (0 : Fin 2) * 512 + 1 * (y 0).val = (z 0).val; rw [e2, h0]; omega
    | ⟨1, _⟩ => show win0_1.index t (1 : Fin 2) * 128 + 1 * (y 1).val = (z 1).val; rw [e3, h1]; omega

/-! ## The blocks cover the result -/

/-- An index of the result is in point `t`'s block iff each coordinate is in the block's range on its axis. -/
theorem mem_block (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v4).slice (win0_2.rect t)).set ↔ _
  rw [View.set_slice_whole, Rect.mem_set_unit]
  exact Iff.rfl

/-- Row `r` of the result lies in the block of point `r / 1024`, which writes back. -/
theorem covered (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : grid0.N = 8 := N_0
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 128 ≤ (i 1).val ∧ (i 1).val < win0_2.index t (1 : Fin 2) * 128 + 128; rw [e5]; omega

/-! ## The result array after the region -/

/-- THE RESULT after the 8 points: the product of the two arrays as the region finds them. -/
theorem region0_product (c : Dev nD) :
    (dat0 (F := Ideal) V c).arrAt 2 cfg0.N = product (V c main_arg0) (V c main_arg3) :=
  (dat0 V c).arrAt_eq_of_cover 2 _ (fun t _ => flushed_eq V c t) covered

end

end Cert.KernelIdeal.Val

end
-- ==== Proof.RegionMatmulRef.lean ====
/- The tiled matrix product against the reference's product. The reference computes the same [8192,128] array by
   one dot of the whole [8192,512] and [512,128] arrays, whose entry (r, q) at the ideal values is the same sum over
   k of left (r, k) times right (k, q): so the result the 8 points leave is the reference's dot of the two arrays
   as the region finds them. -/
import proofs.«160412_j54743653154966_1_alg».proof.Proof.RegionMatmul
import proofs.«160412_j54743653154966_1_alg».proof.Proof.ReadP

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

/-- The product, entry by entry, is the reference's dot of the two arrays. -/
theorem product_eq_dot (X : (⟨S8192x512, .f32⟩ : BufTy).Contents (Elt Ideal)) (W : (⟨S512x128, .f32⟩ : BufTy).Contents (Elt Ideal)) :
    product X W = Cert.ReferenceIdeal.ReadP.val_main_v4 (F := Ideal) X W :=
  funext fun i => (Cert.ReferenceIdeal.ReadP.val_main_v4_apply X W i).symm

/-- THE RESULT ARRAY AFTER THE MATRIX PRODUCT'S REGION is the reference's dot of the two arrays as the region finds them. -/
theorem region0_value (V : (c : Dev nD) → (b : Ref sig .tc) → Buf (Elt Ideal) ((c : Thread nD τ).loc b)) (c : Dev nD) :
    (Gen.dat0 (F := Ideal) V c).arrAt 2 cfg0.N
      = Cert.ReferenceIdeal.ReadP.val_main_v4 (F := Ideal) (V c main_arg0) (V c main_arg3) :=
  (region0_product V c).trans (product_eq_dot _ _)

end Cert.KernelIdeal.Val

end
-- ==== Proof.Spec.lean ====
/-
  The relaxed-Bernoulli keep factor, one element at a time, on the extended reals.

  With rp the retain probability, sp the value that is scaled and ns the uniform noise,
      logit = ((log (rp + eps) - log1p (-rp + eps)) + (log ns - log1p (-ns))) / temp
      sigma = logistic logit
      keep  = (one - ((roundeven sigma + sigma) - sigma)) * sp
  where eps, temp and one are the three single-precision words the programs carry (1e-10, 0.2 and 1.0).
  The words are never evaluated, except that the word of 1.0 denotes the extended real 1: a program that
  spells the logistic function as 1 / (1 + exp (-x)) with that word computes the same function.
-/
import Idealize.ShloMosaic.PureOps.Ideal
import Idealize.ShloMosaic.PureOps.Ideal.Laws

noncomputable section

namespace Cert.Spec

open Idealize.ShloMosaic

/-- The word of 1e-10. -/
def eps : EReal := Ideal.ofBits .f32 0x2EDBE6FF#32
/-- The word of 0.2, the temperature. -/
def temp : EReal := Ideal.ofBits .f32 0x3E4CCCCD#32
/-- The word of 1.0. -/
def one : EReal := Ideal.ofBits .f32 0x3F800000#32

/-- The word of 1.0 denotes the extended real 1. -/
theorem ofBits_one_f32 : Ideal.ofBits .f32 0x3F800000#32 = 1 := by
  simp [Ideal.ofBits, Ideal.ieee, -EReal.coe_mul]; norm_num

/-- The logit of the relaxed Bernoulli sample: the logit of the retain probability (guarded by eps) plus the
    logistic noise, over the temperature. -/
def logit (rp ns : EReal) : EReal :=
  Ideal.div ((Ideal.log (rp + eps) - Ideal.log1p (-rp + eps)) + (Ideal.log ns - Ideal.log1p (-ns))) temp

/-- The relaxed sample. -/
def sigma (rp ns : EReal) : EReal := Ideal.logistic (logit rp ns)

/-- The keep factor times the scaled value: the relaxed sample is replaced by its rounding to the nearest
    integer (ties to even) through the straight-through sum (round sigma + sigma) - sigma. -/
def keep (rp sp ns : EReal) : EReal :=
  (one - ((Ideal.liftRound Ideal.roundHalfEven (sigma rp ns) + sigma rp ns) - sigma rp ns)) * sp

/-- The logistic function spelt as a quotient with the word of 1.0 in both places is the logistic function. -/
theorem logistic_of_words (x : EReal) :
    Ideal.div (Ideal.ofBits .f32 0x3F800000#32) (Ideal.ofBits .f32 0x3F800000#32 + Ideal.exp (-x)) = Ideal.logistic x := by
  rw [ofBits_one_f32]; rfl

end Cert.Spec

end
-- ==== Proof.RegionBernoulli.lean ====
/-
  The value of the pointwise relaxed-Bernoulli region, at the extended reals, for any contents found at entry.

  The region runs over an 8 x 8 grid. At point (p, q) it reads block (p, q), of 1024 x 1024 elements, of each of
  three 8192 x 8192 arrays (the retain probabilities, the values to scale, the uniform noise) and writes block
  (p, q) of the result. Every operation of the body is pointwise, so the element the body leaves at place j of
  its block is the keep factor (Cert.Spec.keep) of the three input blocks' elements at j; place j of block (p, q)
  is place (1024 p + j0, 1024 q + j1) of the array, for the inputs and for the output alike; and the 64 blocks
  fill the array. So the result array is the keep factor of the three input arrays, index by index.
-/
import proofs.«160412_j54743653154966_1_alg».proof.Proof.Gen.KernelIdeal.Frame
import proofs.«160412_j54743653154966_1_alg».proof.Proof.Gen.KernelIdeal.Points
import proofs.«160412_j54743653154966_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Bernoulli

/-- A block of the pointwise kernel is loaded and stored at offset zero on both axes. -/
theorem zero_offsets : (![0, 0] : Fin 2 → Nat) = fun _ => 0 := funext fun a => by fin_cases a <;> rfl

/-- One element of the body's result is the keep factor of the three loaded elements at the same place: every
    operation of the chain is pointwise, the two shape casts are identities, and a difference from the zero word
    is a negation. -/
theorem payload_apply (x0 x2 x4 : Vec Ideal S1024x1024 .f32) (j : S1024x1024.Idx) :
    k1_pay1 (F := Ideal) x0 x2 x4 j = Cert.Spec.keep (x0 j) (x2 j) (x4 j) := by
  unfold k1_pay1
  simp only [shapeCast_self, mulf, subf, addf, divf, log, log1p, logistic, roundeven, broadcast,
    Ideal.mulf_def, Ideal.subf_def, Ideal.addf_def, Ideal.divf_def, Ideal.log_def, Ideal.log1p_def,
    Ideal.logistic_def, Ideal.roundeven_def, Ideal.ofBits_def, Ideal.ofBits_zero_f32, zero_sub,
    Cert.Spec.keep, Cert.Spec.sigma, Cert.Spec.logit, Cert.Spec.eps, Cert.Spec.temp, Cert.Spec.one]

/-- The four windows move together: at every point of the 8 x 8 grid each input window's block index equals the
    output window's on both axes, and the output's block indices are below 8. -/
theorem block_indices : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) ≤ 7 ∧ win1_3.index t (1 : Fin 2) ≤ 7 :=
  (by decide +kernel : ∀ t : Fin grid1.N, _)

/-- Every block (q0, q1) of the 8 x 8 tiling is some point's output block. -/
theorem block_onto : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- The array the region leaves: the keep factor of the three input arrays, index by index. -/
abbrev kept (a0 a1 a2 : S8192x8192.Idx → EReal) : S8192x8192.Idx → EReal := fun i => Cert.Spec.keep (a0 i) (a1 i) (a2 i)

/-- What point t writes back is block t of the keep factor of the three whole input arrays: the body's result at
    place j of the block is the keep factor of the three input blocks at j, and each input block's element j is its
    array's element at (block index * 1024 + j) on each axis, the same place as the output block's. -/
theorem block_written (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (kept (V c main_v63) (V c main_v79) (V c main_arg6)) := by
  show (cfg1.win 3).cut (grid1.coords t) ((dat1 V c).after 3 t) = _
  rw [after1_3]
  unfold out1_3
  rw [View.canon_unit_zero zero_offsets]
  simp only [View.ld_unit_zero (S := S1024x1024) zero_offsets]
  obtain ⟨e0, e1, e2, e3, e4, e5, e6, e7⟩ := block_indices t
  funext j
  refine (payload_apply _ _ _ j).trans ?_
  show Cert.Spec.keep (V c main_v63 (((cfg1.win 0).blk t).view.emb j)) (V c main_v79 (((cfg1.win 1).blk t).view.emb j)) (V c main_arg6 (((cfg1.win 2).blk t).view.emb j))
     = Cert.Spec.keep (V c main_v63 (((cfg1.win 3).blk t).view.emb j)) (V c main_v79 (((cfg1.win 3).blk t).view.emb j)) (V c main_arg6 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * (j 1).val = win1_3.index t (1 : Fin 2) * 1024 + 1 * (j 1).val; omega
  have h1 : ((cfg1.win 1).blk t).view.emb j = ((cfg1.win 3).blk t).view.emb j := by
    funext a; apply Fin.ext
    match a with
    | ⟨0, _⟩ => show win1_1.index t (0 : Fin 2) * 1024 + 1 * (j 0).val = win1_3.index t (0 : Fin 2) * 1024 + 1 * (j 0).val; omega
    | ⟨1, _⟩ => show win1_1.index t (1 : Fin 2) * 1024 + 1 * (j 1).val = win1_3.index t (1 : Fin 2) * 1024 + 1 * (j 1).val; omega
  have h2 : ((cfg1.win 2).blk t).view.emb j = ((cfg1.win 3).blk t).view.emb j := by
    funext a; apply Fin.ext
    match a with
    | ⟨0, _⟩ => show win1_2.index t (0 : Fin 2) * 1024 + 1 * (j 0).val = win1_3.index t (0 : Fin 2) * 1024 + 1 * (j 0).val; omega
    | ⟨1, _⟩ => show win1_2.index t (1 : Fin 2) * 1024 + 1 * (j 1).val = win1_3.index t (1 : Fin 2) * 1024 + 1 * (j 1).val; omega
  rw [h0, h1, h2]

/-- An index of the output array is in point t's block iff on each axis it lies in the 1024 places from
    block index * 1024. -/
theorem mem_block (t : Fin cfg1.N) (i : S8192x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v80).slice (win1_3.rect t)).set ↔ _
  rw [View.set_slice_whole, Rect.mem_set_unit]
  exact Iff.rfl

/-- The 64 output blocks fill the array: row r and column s lie in block (r / 1024, s / 1024), which is some point's,
    and every point writes its block back. -/
theorem covered (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_block]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

end Bernoulli

/-- The array of window 3 after the region: the keep factor of the three input arrays as the region finds them,
    index by index. -/
theorem region1_value (V : (c : Dev nD) → (b : Ref sig .tc) → Buf (Elt Ideal) ((c : Thread nD τ).loc b)) (c : Dev nD) :
    (Gen.dat1 (F := Ideal) V c).arrAt 3 cfg1.N
      = fun i => Cert.Spec.keep (V c main_v63 i) (V c main_v79 i) (V c main_arg6 i) :=
  (dat1 (F := Ideal) V c).arrAt_eq_of_cover 3 (Bernoulli.kept (V c main_v63) (V c main_v79) (V c main_arg6))
    (fun t _ => Bernoulli.block_written V c t) Bernoulli.covered

end Cert.KernelIdeal.Val

end
-- ==== Proof.RefBernoulli.lean ====
/-
  The reference's relaxed-Bernoulli chain, read one element at a time, at the extended reals.

  From the retain probabilities (stage 63), the values to scale (stage 79) and the uniform noise (argument 6) the
  reference computes, by pointwise operations on whole 8192 x 8192 arrays,
      logit = ((log (rp + eps) - log1p (-rp + eps)) + (log ns - log1p (-ns))) / temp,
      sigma = 1 / (1 + exp (-logit)),   the logistic function written out with the word of 1.0,
      stage 106 = (1 - ((roundeven sigma + sigma) - sigma)) * sp.
  Each stage's element at an index is the operation of its operands' elements at that index, a broadcast constant
  is its word everywhere, and the written-out logistic is the logistic function: so stage 106 at an index is the
  keep factor (Cert.Spec.keep) of the three arrays' elements there. Stages 63 and 79 stay closed.
-/
import proofs.«160412_j54743653154966_1_alg».proof.Proof.ReadP
import proofs.«160412_j54743653154966_1_alg».proof.Proof.Spec

noncomputable section

namespace Cert.ReferenceIdeal.RefValue

open Cert.ReferenceIdeal Cert.ReferenceIdeal.ReadP Idealize.ShloMosaic

/-- Stage 106 of the reference, index by index, is the keep factor of stage 63, stage 79 and argument 6. -/
theorem v106_pointwise (x0 : (⟨S8192x512, .f32⟩ : BufTy).Contents (Elt Ideal)) (x1 x2 : (⟨S262144, .i32⟩ : BufTy).Contents (Elt Ideal))
    (x3 : (⟨S512x128, .f32⟩ : BufTy).Contents (Elt Ideal)) (x4 : (⟨S256x1, .f32⟩ : BufTy).Contents (Elt Ideal))
    (x5 : (⟨S1, .f32⟩ : BufTy).Contents (Elt Ideal)) (x6 : (⟨S8192x8192, .f32⟩ : BufTy).Contents (Elt Ideal)) :
    val_main_v106 (F := Ideal) x0 x1 x2 x3 x4 x5 x6
      = fun i => Cert.Spec.keep (val_main_v63 (F := Ideal) x0 x1 x2 x3 x4 x5 i) (val_main_v79 (F := Ideal) x1 x2 i) (x6 i) := by
  funext i
  -- each stage at the index, outermost first, down to the two closed stages and the argument
  simp only [val_main_v106_apply, val_main_v105_apply, val_main_v104_apply, val_main_cst_27_apply,
    val_main_v103_apply, val_main_v102_apply, val_main_v101_apply, val_main_v100_apply,
    val_main_v99_apply, val_main_cst_26_apply, val_main_v98_apply, val_main_v97_apply, val_main_cst_25_apply,
    val_main_v96_apply, val_main_v95_apply, val_main_v94_apply, val_main_v93_apply, val_main_cst_24_apply,
    val_main_v92_apply, val_main_v91_apply, val_main_v90_apply, val_main_v89_apply, val_main_v88_apply,
    val_main_v87_apply, val_main_v86_apply, val_main_v85_apply, val_main_v84_apply, val_main_cst_23_apply,
    val_main_v83_apply, val_main_v82_apply, val_main_v81_apply, val_main_v80_apply, val_main_cst_22_apply]
  generalize val_main_v63 (F := Ideal) x0 x1 x2 x3 x4 x5 i = a
  generalize val_main_v79 (F := Ideal) x1 x2 i = b
  generalize x6 i = n
  -- the operations on the extended reals, and the written-out logistic folded
  simp only [Ideal.mulf_def, Ideal.subf_def, Ideal.addf_def, Ideal.hostDivf_def, Ideal.hostUnary_roundeven_def,
    Ideal.hostUnary_exp_def, Ideal.hostUnary_log_def, Ideal.hostUnary_log1p_def, Ideal.hostNegf_def, Ideal.negf_def,
    Ideal.ofBits_def, Cert.Spec.logistic_of_words, Cert.Spec.keep, Cert.Spec.sigma, Cert.Spec.logit,
    Cert.Spec.eps, Cert.Spec.temp, Cert.Spec.one]

end Cert.ReferenceIdeal.RefValue

end
-- ==== Proof.Fold.lean ====
/-
  The three results of the idealized kernel program, read off the fold of buffer contents.

  The frame module names the buffer contents at each segment boundary `W0 … W8`. Walking that fold backwards:
  the masked features are written by the second stretch and by nothing after it; the first pallas_call leaves the
  encoder product `x · W_enc` in its output array (the blocks of 1024 rows tile it); the middle stretches turn that
  product and the edge lists into the dense array of removal probabilities and the dense 0/1 adjacency, by the
  reference's own operations; the second pallas_call leaves, entry by entry, the sampling chain of those two arrays
  and the noise (its 1024 x 1024 blocks tile the array), which is the reference's stage of the same arguments; and the
  tail's quotient of the two counts is the reference's last stage. So the three results are the reference's three
  stages of the argument arrays.
-/
import proofs.«160412_j54743653154966_1_alg».proof.Proof.Gen.KernelIdeal.Frame
import proofs.«160412_j54743653154966_1_alg».proof.Proof.ReadP
import proofs.«160412_j54743653154966_1_alg».proof.Proof.HostPre
import proofs.«160412_j54743653154966_1_alg».proof.Proof.HostMid
import proofs.«160412_j54743653154966_1_alg».proof.Proof.HostTail
import proofs.«160412_j54743653154966_1_alg».proof.Proof.RegionMatmulRef
import proofs.«160412_j54743653154966_1_alg».proof.Proof.RegionBernoulli
import proofs.«160412_j54743653154966_1_alg».proof.Proof.RefBernoulli

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.ReadP (val_main_v3 val_main_v4 val_main_v63 val_main_v79 val_main_v106 val_main_v117)

variable (m : (ℓ : Loc nD τ sig) → Buf (Elt Ideal) ℓ) (ρ : Dev nD → PrngReg) (c : Dev nD)

/-! ## The arguments, through the first stretches and the first call -/

theorem W2_arg0 : W2 m ρ c (Proc.devRef .tc main_arg0) = m ((c : Thread nD τ).loc main_arg0) := (pre_arg0 (W0 m ρ c)).trans rfl
theorem W2_arg1 : W2 m ρ c (Proc.devRef .tc main_arg1) = m ((c : Thread nD τ).loc main_arg1) := (pre_arg1 (W0 m ρ c)).trans rfl
theorem W2_arg2 : W2 m ρ c (Proc.devRef .tc main_arg2) = m ((c : Thread nD τ).loc main_arg2) := (pre_arg2 (W0 m ρ c)).trans rfl
theorem W2_arg3 : W2 m ρ c (Proc.devRef .tc main_arg3) = m ((c : Thread nD τ).loc main_arg3) := (pre_arg3 (W0 m ρ c)).trans rfl
theorem W2_arg4 : W2 m ρ c (Proc.devRef .tc main_arg4) = m ((c : Thread nD τ).loc main_arg4) := (pre_arg4 (W0 m ρ c)).trans rfl
theorem W2_arg5 : W2 m ρ c (Proc.devRef .tc main_arg5) = m ((c : Thread nD τ).loc main_arg5) := (pre_arg5 (W0 m ρ c)).trans rfl
theorem W2_arg6 : W2 m ρ c (Proc.devRef .tc main_arg6) = m ((c : Thread nD τ).loc main_arg6) := (pre_arg6 (W0 m ρ c)).trans rfl

/-- The masked features are final after the second stretch. -/
theorem W2_v3 : W2 m ρ c (Proc.devRef .tc main_v3)
    = val_main_v3 (F := Ideal) (m ((c : Thread nD τ).loc main_arg0)) (m ((c : Thread nD τ).loc main_arg7)) :=
  (pre_v3 (W0 m ρ c)).trans rfl

/-- The first call reads `x` and `W_enc` through input windows and leaves them as they were. -/
theorem W3_arg0 : W3 m ρ c (Proc.devRef .tc main_arg0) = m ((c : Thread nD τ).loc main_arg0) :=
  ((W3_arr m ρ c 0).trans (((dat0 (V2 m ρ) c).arrAt_in 0 rfl _).trans (A_eq0 (V2 m ρ) c 0))).trans (W2_arg0 m ρ c)
theorem W3_arg3 : W3 m ρ c (Proc.devRef .tc main_arg3) = m ((c : Thread nD τ).loc main_arg3) :=
  ((W3_arr m ρ c 1).trans (((dat0 (V2 m ρ) c).arrAt_in 1 rfl _).trans (A_eq0 (V2 m ρ) c 1))).trans (W2_arg3 m ρ c)
theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg4 : W3 m ρ c (Proc.devRef .tc main_arg4) = m ((c : Thread nD τ).loc main_arg4) :=
  (W3_of_ne m ρ c main_arg4 (by decide)).trans (W2_arg4 m ρ c)
theorem W3_arg5 : W3 m ρ c (Proc.devRef .tc main_arg5) = m ((c : Thread nD τ).loc main_arg5) :=
  (W3_of_ne m ρ c main_arg5 (by decide)).trans (W2_arg5 m ρ c)
theorem W3_arg6 : W3 m ρ c (Proc.devRef .tc main_arg6) = m ((c : Thread nD τ).loc main_arg6) :=
  (W3_of_ne m ρ c main_arg6 (by decide)).trans (W2_arg6 m ρ c)
theorem W3_v3 : W3 m ρ c (Proc.devRef .tc main_v3)
    = val_main_v3 (F := Ideal) (m ((c : Thread nD τ).loc main_arg0)) (m ((c : Thread nD τ).loc main_arg7)) :=
  (W3_of_ne m ρ c main_v3 (by decide)).trans (W2_v3 m ρ c)

/-- The first call leaves the encoder product `x · W_enc` of the argument arrays in its output array. -/
theorem W3_v4 : W3 m ρ c (Proc.devRef .tc main_v4)
    = val_main_v4 (F := Ideal) (m ((c : Thread nD τ).loc main_arg0)) (m ((c : Thread nD τ).loc main_arg3)) :=
  ((W3_arr m ρ c 2).trans (region0_value (V2 m ρ) c)).trans
    (congrArg₂ (val_main_v4 (F := Ideal)) (W2_arg0 m ρ c) (W2_arg3 m ρ c))

/-! ## The middle stretches: the two dense arrays the second call reads -/

theorem W6_v63 : W6 m ρ c (Proc.devRef .tc main_v63)
    = val_main_v63 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have h := mid_v63 (W3 m ρ c) (by rw [W3_arg0 m ρ c, W3_arg3 m ρ c]; exact W3_v4 m ρ c)
  rw [W3_arg0 m ρ c, W3_arg1 m ρ c, W3_arg2 m ρ c, W3_arg3 m ρ c, W3_arg4 m ρ c, W3_arg5 m ρ c] at h
  exact h

theorem W6_v79 : W6 m ρ c (Proc.devRef .tc main_v79)
    = val_main_v79 (F := Ideal) (m ((c : Thread nD τ).loc main_arg1)) (m ((c : Thread nD τ).loc main_arg2)) := by
  have h := mid_v79 (W3 m ρ c)
  rw [W3_arg1 m ρ c, W3_arg2 m ρ c] at h
  exact h

theorem W6_arg6 : W6 m ρ c (Proc.devRef .tc main_arg6) = m ((c : Thread nD τ).loc main_arg6) :=
  (mid_arg6 (W3 m ρ c)).trans (W3_arg6 m ρ c)

theorem W6_v3 : W6 m ρ c (Proc.devRef .tc main_v3)
    = val_main_v3 (F := Ideal) (m ((c : Thread nD τ).loc main_arg0)) (m ((c : Thread nD τ).loc main_arg7)) :=
  (mid_v3 (W3 m ρ c)).trans (W3_v3 m ρ c)

/-! ## The second call and the tail -/

/-- The second call leaves the sampled adjacency in its output array: entry by entry the sampling chain of the two
    dense arrays and the noise, which is the reference's stage of the arguments. -/
theorem W7_v80 : W7 m ρ c (Proc.devRef .tc main_v80)
    = val_main_v106 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W7_arr m ρ c 3).trans ((region1_value (V6 m ρ) c).trans ?_)
  rw [Cert.ReferenceIdeal.RefValue.v106_pointwise]
  show (fun i => Cert.Spec.keep (W6 m ρ c (Proc.devRef .tc main_v63) i) (W6 m ρ c (Proc.devRef .tc main_v79) i)
      (W6 m ρ c (Proc.devRef .tc main_arg6) i)) = _
  rw [W6_v63 m ρ c, W6_v79 m ρ c, W6_arg6 m ρ c]
  rfl

/-- The dense 0/1 adjacency is an input of the second call: left as it was. -/
theorem W7_v79 : W7 m ρ c (Proc.devRef .tc main_v79)
    = val_main_v79 (F := Ideal) (m ((c : Thread nD τ).loc main_arg1)) (m ((c : Thread nD τ).loc main_arg2)) :=
  ((W7_arr m ρ c 1).trans (((dat1 (V6 m ρ) c).arrAt_in 1 rfl _).trans (A_eq1 (V6 m ρ) c 1))).trans (W6_v79 m ρ c)

theorem W7_v3 : W7 m ρ c (Proc.devRef .tc main_v3)
    = val_main_v3 (F := Ideal) (m ((c : Thread nD τ).loc main_arg0)) (m ((c : Thread nD τ).loc main_arg7)) :=
  (W7_of_ne m ρ c main_v3 (by decide)).trans (W6_v3 m ρ c)

/-- The three results in the last fold value. -/
theorem W8_v3 : W8 m ρ c (Proc.devRef .tc main_v3)
    = val_main_v3 (F := Ideal) (m ((c : Thread nD τ).loc main_arg0)) (m ((c : Thread nD τ).loc main_arg7)) :=
  (tail_v3 (W7 m ρ c)).trans (W7_v3 m ρ c)

theorem W8_v80 : W8 m ρ c (Proc.devRef .tc main_v80)
    = val_main_v106 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  (tail_v80 (W7 m ρ c)).trans (W7_v80 m ρ c)

theorem W8_v91 : W8 m ρ c (Proc.devRef .tc main_v91)
    = val_main_v117 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  tail_v91 (W7 m ρ c) _ _ _ _ _ _ _ (W7_v80 m ρ c) (W7_v79 m ρ c)

end Cert.KernelIdeal.Val

end
-- ==== Proof.KernelValue.lean ====
/-
  The run of the idealized kernel program with its three results named.

  Every weakly fair execution terminates without a fault; the masked features, the sampled adjacency and the ratio
  of the two counts end at the reference's three stages of the argument arrays (the last fold value, read buffer by
  buffer), and the argument arrays end as launched.
-/
import proofs.«160412_j54743653154966_1_alg».proof.Proof.KernelRun
import proofs.«160412_j54743653154966_1_alg».proof.Proof.Fold

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.ReadP (val_main_v3 val_main_v106 val_main_v117)

theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = val_main_v3 (F := Ideal) (m ((c : Thread nD τ).loc main_arg0)) (m ((c : Thread nD τ).loc main_arg7))
      ∧ r.2.mem ((c.tc : Thread nD τ).loc main_v80)
          = val_main_v106 (F := Ideal) (m ((c : Thread nD τ).loc main_arg0)) (m ((c : Thread nD τ).loc main_arg1))
              (m ((c : Thread nD τ).loc main_arg2)) (m ((c : Thread nD τ).loc main_arg3)) (m ((c : Thread nD τ).loc main_arg4))
              (m ((c : Thread nD τ).loc main_arg5)) (m ((c : Thread nD τ).loc main_arg6))
      ∧ r.2.mem ((c.tc : Thread nD τ).loc main_v91)
          = val_main_v117 (F := Ideal) (m ((c : Thread nD τ).loc main_arg0)) (m ((c : Thread nD τ).loc main_arg1))
              (m ((c : Thread nD τ).loc main_arg2)) (m ((c : Thread nD τ).loc main_arg3)) (m ((c : Thread nD τ).loc main_arg4))
              (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v3 (by decide))).trans (W8_v3 m ρ c),
       (h c _ (mem_uc main_v80 (by decide))).trans (W8_v80 m ρ c),
       (h c _ (mem_uc main_v91 (by decide))).trans (W8_v91 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_all (F := Ideal) m ρ)

end Cert.KernelIdeal.Val

end
-- ==== Proof.lean ====
/-
  The certificate of the graph-augmentation kernel against its reference.

  Both programs mask feature columns, encode the nodes by one product `x · W_enc`, aggregate it over the edges,
  score every edge, normalise the scores into removal probabilities, scatter them and the edges into two dense
  8192 x 8192 arrays, draw a relaxed Bernoulli sample per entry, `(1 − ((round σ + σ) − σ)) · adjacency` with
  `σ = logistic((logit p + logistic noise) / 0.2)`, and return the masked features, the sampled adjacency and the
  ratio of the two arrays' nonzero counts. The kernel program computes the product and the sampling chain in two
  pallas_calls; everything else is the same host operations in the same order.

  Over the extended reals the two programs are one function of the arguments, with no condition on them: the tiled
  product is the same finite sum as the host's, entry by entry; the kernel's `0 − p` is the reference's `−p`; the
  kernel's logistic is by definition the reference's `1 / (1 + exp(−x))`; and every float word (1e-10, 0.2, 0.3, 1)
  is the same word on both sides. The idealization rewrote nothing, so `preserves` is trivial.
-/
import proofs.«160412_j54743653154966_1_alg».proof.Defs
import proofs.«160412_j54743653154966_1_alg».proof.Proof.Gen.Kernel
import proofs.«160412_j54743653154966_1_alg».proof.Proof.Gen.Kernel.Skeleton
import proofs.«160412_j54743653154966_1_alg».proof.Proof.Gen.Kernel.Launch
import proofs.«160412_j54743653154966_1_alg».proof.Proof.Gen.Kernel.Points
import proofs.«160412_j54743653154966_1_alg».proof.Proof.Gen.Kernel.Frame
import proofs.«160412_j54743653154966_1_alg».proof.Proof.Gen.KernelIdeal
import proofs.«160412_j54743653154966_1_alg».proof.Proof.Gen.KernelIdeal.Skeleton
import proofs.«160412_j54743653154966_1_alg».proof.Proof.Gen.KernelIdeal.Launch
import proofs.«160412_j54743653154966_1_alg».proof.Proof.Gen.KernelIdeal.Points
import proofs.«160412_j54743653154966_1_alg».proof.Proof.Gen.KernelIdeal.Frame
import proofs.«160412_j54743653154966_1_alg».proof.Proof.Gen.ReferenceIdeal
import proofs.«160412_j54743653154966_1_alg».proof.Proof.Gen.Pre_finite_inputs
import proofs.«160412_j54743653154966_1_alg».proof.Proof.RunP
import proofs.«160412_j54743653154966_1_alg».proof.Proof.ReadP
import proofs.«160412_j54743653154966_1_alg».proof.Proof.KernelValue
import Idealize.ShloMosaic.Adequacy
import Idealize.ShloMosaic.Init

noncomputable section

namespace Cert.Proof

open Idealize.ShloMosaic Idealize.ShloMosaic.TcCoe Idealize.SL.Sem

/-- The three frames: the two kernel programs by their generated frame certificates, the reference by its run with the
    results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- From memories agreeing on the arguments both programs end at the reference's three stages of those arguments. -/
theorem algebraic : Cert.algebraic_KernelIdeal_ReferenceIdeal := by
  intro m ρ m' ρ' _ hagree
  refine ⟨_, _, _, Cert.KernelIdeal.Val.run_values m ρ, ?_⟩
  refine (θ_run Cert.ReferenceIdeal.defs _ _).mono (fun _ h c => ?_) (Cert.ReferenceIdeal.ValueP.run (F := Ideal) m' ρ')
  obtain ⟨h3, h106, h117, hargs⟩ := h c
  obtain ⟨e0, e1, e2, e3, e4, e5, e6, e7⟩ := hagree c
  refine ⟨?_, ?_, ?_, hargs⟩
  · rw [h3, Cert.ReferenceIdeal.ReadP.val_main_v3_eq, e0, e7]
  · rw [h106, Cert.ReferenceIdeal.ReadP.val_main_v106_eq, e0, e1, e2, e3, e4, e5, e6]
  · rw [h117, Cert.ReferenceIdeal.ReadP.val_main_v117_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
